-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x2048, .f32⟩
  | .local _ .vmem, ⟨7, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x1024_S1x512x1024 : S512x1024.ShapeCasts S1x512x1024
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.RowAttention.lean ====
/-
  Dot-product attention, one query row at a time, on the extended reals.

  A query row `q` (one entry per feature) meets every key row `k s`: its score against key `s` is the
  inner product over the feature axis; the row's weights are the softmax of the scores, written the stable way —
  the row's largest score is subtracted before the exponential, and each exponential is divided by their
  sum —; and the row's context is the weighted sum of the key rows themselves, the keys doing duty as values.
  Nothing here depends on how the rows are tiled or in which order a sum is taken: each quantity is one
  function of the row and of the keys.

  The whole arrays follow: queries and keys are [8, 2048, 1024] arrays (batch, position, feature); row
  (b, t) of either result depends on row (b, t) of the queries and on batch `b` of the keys only.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The f32 pattern of −∞, from which a row's maximum is taken. -/
abbrev negInf : EReal := Ideal.ofBits .f32 0xFF800000#32

/-- That pattern denotes the bottom of the extended reals. -/
theorem negInf_eq_bot : negInf = ⊥ := by simp [negInf, Ideal.ofBits, Ideal.ieee]

/-- So the maximum with it is the other argument: taking a maximum once more against −∞ changes nothing. -/
theorem max_negInf (y : EReal) : max negInf y = y := by
  rw [negInf_eq_bot]; exact max_eq_right bot_le

/-! ## One row -/

section Row

variable (q : Fin 1024 → EReal) (k : Fin 2048 → Fin 1024 → EReal)

/-- The row's score against key `s`: the inner product over the features. -/
def score (s : Fin 2048) : EReal := ∑ d : Fin 1024, q d * k s d

/-- The row's largest score, taken from −∞ over all keys. -/
def top : EReal := (Finset.univ : Finset (Fin 2048)).fold max negInf (score q k)

/-- The exponential of a score once the row's largest has been subtracted. -/
def expo (s : Fin 2048) : EReal := Ideal.exp (score q k s - top q k)

/-- The sum of the row's exponentials. -/
def mass : EReal := ∑ s : Fin 2048, expo q k s

/-- The row's softmax weight on key `s`. -/
def weight (s : Fin 2048) : EReal := Ideal.div (expo q k s) (mass q k)

/-- The row's context at feature `d`: the key rows summed with the row's weights. -/
def mix (d : Fin 1024) : EReal := ∑ s : Fin 2048, weight q k s * k s d

end Row

/-! ## The arrays -/

/-- A [8, 2048, 1024] array: batch, position, feature. -/
abbrev Rows := (⟨3, ![8, 2048, 1024]⟩ : Shape).Idx → EReal

/-- Row (b, t) of an array, as a function of the feature. -/
def rowOf (X : Rows) (b : Fin 8) (t : Fin 2048) : Fin 1024 → EReal := fun d => X (ix3 b t d)

/-- Batch `b` of an array, as a function of position and feature. -/
def batchOf (X : Rows) (b : Fin 8) : Fin 2048 → Fin 1024 → EReal := fun s d => X (ix3 b s d)

/-- The attention weights: at (b, t, s) the weight row (b, t) of the queries puts on key `s` of batch `b`. -/
def weights (Q K : Rows) : (⟨3, ![8, 2048, 2048]⟩ : Shape).Idx → EReal :=
  fun i => weight (rowOf Q (i 0) (i 1)) (batchOf K (i 0)) (i 2)

/-- The context vectors: at (b, t, d) the context of row (b, t) of the queries over batch `b` of the keys. -/
def contexts (Q K : Rows) : Rows :=
  fun i => mix (rowOf Q (i 0) (i 1)) (batchOf K (i 0)) (i 2)

end Cert.Attention

end
-- ==== Proof.ReferenceRows.lean ====
/-
  The reference, stage by stage, is attention one row at a time.

  The host program computes all the scores by one batched product contracting the feature axis, takes each
  row's maximum (from −∞, and once more against −∞, which changes nothing), subtracts it, exponentiates,
  sums each row, divides, and multiplies the weights into the keys by a second batched product contracting the
  key axis. Read at an index, every one of these stages is the corresponding quantity of the row (b, t) the
  index lies in, over batch `b` of the keys.
-/
import proofs.«100606_j37031208026188_2_alg».proof.Proof.Gen.ReferenceIdeal.Read
import proofs.«100606_j37031208026188_2_alg».proof.Proof.RowAttention
import Idealize.ShloMosaic.PureOps.Reduce
import Idealize.ShloMosaic.PureOps.Ideal.Laws

noncomputable section

namespace Cert.ReferenceIdeal.Rowwise

open Cert.ReferenceIdeal Cert.ReferenceIdeal.Gen Cert.ReferenceIdeal.Read
open Idealize.ShloMosaic Idealize.ShloMosaic.ValueIdx Cert.Attention

variable (Q K : Cert.Attention.Rows)

/-- The first product at (b, t, s) is the score of row (b, t) against key `s`. -/
theorem scores_apply (i : S8x2048x2048.Idx) :
    val_main_v0 (F := Ideal) Q K i = score (rowOf Q (i 0) (i 1)) (batchOf K (i 0)) (i 2) := by
  rw [val_main_v0_apply]
  show _ = ∑ d : Fin 1024, Q (ix3 (i 0) (i 1) d) * K (ix3 (i 0) (i 2) d)
  refine Finset.sum_congr rfl fun d _ => ?_
  have el : lidx_main_v0 i d = ix3 (i 0) (i 1) d :=
    funext fun a => Fin.ext (by match a with | ⟨0, _⟩ => rfl | ⟨1, _⟩ => rfl | ⟨2, _⟩ => rfl)
  have er : ridx_main_v0 i d = ix3 (i 0) (i 2) d :=
    funext fun a => Fin.ext (by match a with | ⟨0, _⟩ => rfl | ⟨1, _⟩ => rfl | ⟨2, _⟩ => rfl)
  exact congrArg₂ (fun x y => Q x * K y) el er

/-- The row maximum at (b, t): the reduction over the key axis folds `max` from −∞ over the row's scores, and
    the further maximum against −∞ leaves it. -/
theorem top_apply (j : S8x2048.Idx) :
    val_main_v3 (F := Ideal) Q K j = top (rowOf Q (j 0) (j 1)) (batchOf K (j 0)) := by
  have h : S8x2048x2048.Reduces [2] S8x2048 := by decide
  rw [val_main_v3_apply, val_main_v2_apply, val_main_cst_0_apply]
  unfold val_main_v1
  rw [Host.reduce_eq_fold_single FloatOps.maximumf _ _ reducesTo_S8x2048x2048_S8x2048_d2 h h_S_ j]
  show max negInf (Finset.fold max negInf (val_main_v0 (F := Ideal) Q K ∘ h.lift j) (Finset.univ : Finset (Fin 2048))) = _
  rw [max_negInf]
  unfold top
  refine congrArg (fun f => Finset.fold max negInf f (Finset.univ : Finset (Fin 2048))) (funext fun s => ?_)
  show val_main_v0 (F := Ideal) Q K (h.lift j s) = _
  rw [scores_apply]
  have e0 : h.lift j s 0 = j 0 := Fin.ext rfl
  have e1 : h.lift j s 1 = j 1 := Fin.ext rfl
  have e2 : h.lift j s 2 = s := Fin.ext rfl
  rw [e0, e1, e2]

/-- The exponentials at (b, t, s): the score less the row's maximum, exponentiated. -/
theorem expo_apply (i : S8x2048x2048.Idx) :
    val_main_v7 (F := Ideal) Q K i = expo (rowOf Q (i 0) (i 1)) (batchOf K (i 0)) (i 2) := by
  rw [val_main_v7_apply, val_main_v6_apply, val_main_v5_apply, val_main_v4_apply, top_apply, scores_apply]
  rfl

/-- The row sums at (b, t): from zero, the sum of the row's exponentials. -/
theorem mass_apply (j : S8x2048.Idx) :
    val_main_v8 (F := Ideal) Q K j = mass (rowOf Q (j 0) (j 1)) (batchOf K (j 0)) := by
  rw [val_main_v8_apply, val_main_cst_1_apply]
  show Ideal.ofBits .f32 0x00000000#32 + _ = _
  rw [Ideal.ofBits_zero_f32, zero_add]
  unfold mass
  refine Finset.sum_congr rfl fun s _ => ?_
  rw [expo_apply]
  rfl

/-- The quotient is the array of attention weights. -/
theorem weights_eq : val_main_v11 (F := Ideal) Q K = weights Q K := by
  funext i
  rw [val_main_v11_apply, val_main_v10_apply, val_main_v9_apply, mass_apply, expo_apply]
  rfl

/-- The second product, contracting the key axis against the keys, is the array of contexts. -/
theorem contexts_eq : val_main_v12 (F := Ideal) Q K = contexts Q K := by
  funext i
  rw [val_main_v12_apply, weights_eq]
  show _ = ∑ s : Fin 2048, weight (rowOf Q (i 0) (i 1)) (batchOf K (i 0)) s * K (ix3 (i 0) s (i 2))
  refine Finset.sum_congr rfl fun s _ => ?_
  have er : ridx_main_v12 i s = ix3 (i 0) s (i 2) :=
    funext fun a => Fin.ext (by match a with | ⟨0, _⟩ => rfl | ⟨1, _⟩ => rfl | ⟨2, _⟩ => rfl)
  rw [er]
  rfl

end Cert.ReferenceIdeal.Rowwise

end
-- ==== Proof.TileRows.lean ====
/-
  One grid point of the kernel, row by row.

  A grid point holds a tile of 512 query rows and the whole key array of its batch. It multiplies the tile into
  the transposed keys (a product over the feature axis into a zero accumulator: the scores of the tile's rows),
  takes each row's maximum over the keys from −∞, subtracts it, exponentiates, sums each row from zero, divides
  (the row's weights: one output), and multiplies the weights into the keys (a product over the key axis into a
  zero accumulator: the row's context: the other output). The narrowing of the operands before each product is
  the identity on the extended reals. Read at an index, each payload is therefore the per-row quantity of the
  tile's row, over the tile's keys — whatever the tile holds.
-/
import proofs.«100606_j37031208026188_2_alg».proof.Proof.Gen.KernelIdeal.Skeleton
import proofs.«100606_j37031208026188_2_alg».proof.Proof.RowAttention
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx Cert.Attention

/-! ## The two products, read at an index -/

section Products

theorem scoreLhs_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

theorem scoreRhs_row (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The first product into zero, at (r, s): row `r` of the left operand against row `s` of the right, summed over
    the feature axis they share. -/
theorem scoreProduct_apply (A : FVec Ideal S512x1024 .bf16) (B : FVec Ideal S2048x1024 .bf16) (r : Fin 512) (s : Fin 2048) :
    matmul dot_S512x1024_S2048x1024_S512x2048_1_1_0_0_n_n none A B (constant (F := Ideal) S512x2048 .f32 0x00000000#32) (ix2 r s)
      = ∑ d : Fin 1024, A (ix2 r d) * B (ix2 s d) := by
  simp only [matmul]
  rw [Ideal.matmul_constant_zero_apply, ← Equiv.sum_comp (contrEquiv1 dot_S512x1024_S2048x1024_S512x2048_1_1_0_0_n_n 1024 rfl rfl).symm]
  refine Finset.sum_congr rfl fun d _ => ?_
  have hd := contrEquiv1_symm_val dot_S512x1024_S2048x1024_S512x2048_1_1_0_0_n_n 1024 rfl rfl d
  have el : dot_S512x1024_S2048x1024_S512x2048_1_1_0_0_n_n.lhsIdx (ix2 r s) ((contrEquiv1 dot_S512x1024_S2048x1024_S512x2048_1_1_0_0_n_n 1024 rfl rfl).symm d) = ix2 r d :=
    funext fun a => Fin.ext (by
      match a with
      | ⟨0, _⟩ => exact scoreLhs_row _ _
      | ⟨1, _⟩ => exact (dot_S512x1024_S2048x1024_S512x2048_1_1_0_0_n_n.lhsIdx_val_of_single rfl _ _).trans hd)
  have er : dot_S512x1024_S2048x1024_S512x2048_1_1_0_0_n_n.rhsIdx (ix2 r s) ((contrEquiv1 dot_S512x1024_S2048x1024_S512x2048_1_1_0_0_n_n 1024 rfl rfl).symm d) = ix2 s d :=
    funext fun a => Fin.ext (by
      match a with
      | ⟨0, _⟩ => exact scoreRhs_row _ _
      | ⟨1, _⟩ => exact (dot_S512x1024_S2048x1024_S512x2048_1_1_0_0_n_n.rhsIdx_val_of_single rfl _ _).trans hd)
  rw [el, er]

theorem mixLhs_row (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem mixRhs_col (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The second product into zero, at (r, d): row `r` of the left operand against column `d` of the right, summed
    over the key axis they share. -/
theorem mixProduct_apply (A : FVec Ideal S512x2048 .bf16) (B : FVec Ideal S2048x1024 .bf16) (r : Fin 512) (d : Fin 1024) :
    matmul dot_S512x2048_S2048x1024_S512x1024_1_0_0_1_n_n none A B (constant (F := Ideal) S512x1024 .f32 0x00000000#32) (ix2 r d)
      = ∑ s : Fin 2048, A (ix2 r s) * B (ix2 s d) := by
  simp only [matmul]
  rw [Ideal.matmul_constant_zero_apply, ← Equiv.sum_comp (contrEquiv1 dot_S512x2048_S2048x1024_S512x1024_1_0_0_1_n_n 2048 rfl rfl).symm]
  refine Finset.sum_congr rfl fun s _ => ?_
  have hs := contrEquiv1_symm_val dot_S512x2048_S2048x1024_S512x1024_1_0_0_1_n_n 2048 rfl rfl s
  have el : dot_S512x2048_S2048x1024_S512x1024_1_0_0_1_n_n.lhsIdx (ix2 r d) ((contrEquiv1 dot_S512x2048_S2048x1024_S512x1024_1_0_0_1_n_n 2048 rfl rfl).symm s) = ix2 r s :=
    funext fun a => Fin.ext (by
      match a with
      | ⟨0, _⟩ => exact mixLhs_row _ _
      | ⟨1, _⟩ => exact (dot_S512x2048_S2048x1024_S512x1024_1_0_0_1_n_n.lhsIdx_val_of_single rfl _ _).trans hs)
  have er : dot_S512x2048_S2048x1024_S512x1024_1_0_0_1_n_n.rhsIdx (ix2 r d) ((contrEquiv1 dot_S512x2048_S2048x1024_S512x1024_1_0_0_1_n_n 2048 rfl rfl).symm s) = ix2 s d :=
    funext fun a => Fin.ext (by
      match a with
      | ⟨0, _⟩ => exact (dot_S512x2048_S2048x1024_S512x1024_1_0_0_1_n_n.rhsIdx_val_of_single rfl _ _).trans hs
      | ⟨1, _⟩ => exact mixRhs_col _ _)
  rw [el, er]

end Products

/-! ## The row reductions and the column they are spread back over -/

section Reductions

/-- A row's maximum: the reduction over the key axis, at row `r`, folds `max` from −∞ over the row's entries. -/
theorem rowMax_apply (x : FVec Ideal S512x2048 .f32) (r : Fin 512) :
    multiReduction (F := Ideal) .maximumf [1] S512 x 0xFF800000#32 reduces_S512x2048_S512 (.inl rfl) rfl (ix1 r)
      = (Finset.univ : Finset (Fin 2048)).fold max negInf (fun s => x (ix2 r s)) := by
  refine (Ideal.multiReduction_maximumf_single x 0xFF800000#32 reduces_S512x2048_S512 (.inl rfl) rfl (ix1 r)).trans ?_
  refine congrArg (fun f => Finset.fold max negInf f (Finset.univ : Finset (Fin 2048))) (funext fun s => ?_)
  show x (reduces_S512x2048_S512.lift (ix1 r) s) = x (ix2 r s)
  exact congrArg x (funext fun a => Fin.ext (by match a with | ⟨0, _⟩ => rfl | ⟨1, _⟩ => rfl))

/-- A row's sum: the reduction over the key axis, at row `r`, is the sum of the row's entries. -/
theorem rowSum_apply (x : FVec Ideal S512x2048 .f32) (r : Fin 512) :
    multiReduction (F := Ideal) .add [1] S512 x 0x00000000#32 reduces_S512x2048_S512 (.inl rfl) rfl (ix1 r)
      = ∑ s : Fin 2048, x (ix2 r s) := by
  refine (Ideal.multiReduction_add_single x 0x00000000#32 reduces_S512x2048_S512 (.inl rfl) rfl (ix1 r)).trans ?_
  refine Finset.sum_congr rfl fun s _ => ?_
  show x (reduces_S512x2048_S512.lift (ix1 r) s) = x (ix2 r s)
  exact congrArg x (funext fun a => Fin.ext (by match a with | ⟨0, _⟩ => rfl | ⟨1, _⟩ => rfl))

/-- One value per row, made a column and spread over the keys, reads at (r, s) the value of row `r`. -/
theorem column_apply (v : FVec Ideal S512 .f32) (r : Fin 512) (s : Fin 2048) :
    broadcastTo S512x2048 (shapeCast S512x1 v shapeCasts_S512_S512x1) broadcasts_S512x1_S512x2048 (ix2 r s) = v (ix1 r) := by
  refine (broadcastTo_apply _ broadcasts_S512x1_S512x2048 (ix2 r s) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else s.val; rw [if_pos rfl]
  · exact shapeCast_apply v shapeCasts_S512_S512x1 (ix2 r (0 : Fin 1)) (ix1 r) (by
      rw [Shape.rowMajor_val_one, Shape.rowMajor_val_two]
      show r.val = r.val * 1 + 0
      omega)

end Reductions

/-! ## The softmax of a tile of scores -/

section Softmax

/-- The body's softmax over a tile of scores `x`: each row's maximum subtracted, the exponential, each row's
    sum, the quotient. -/
def softmaxRows (x : FVec Ideal S512x2048 .f32) : FVec Ideal S512x2048 .f32 :=
  divf
    (exp (subf x (broadcastTo S512x2048 (shapeCast S512x1
      (multiReduction (F := Ideal) .maximumf [1] S512 x 0xFF800000#32 reduces_S512x2048_S512 (.inl rfl) rfl) shapeCasts_S512_S512x1) broadcasts_S512x1_S512x2048)))
    (broadcastTo S512x2048 (shapeCast S512x1
      (multiReduction (F := Ideal) .add [1] S512
        (exp (subf x (broadcastTo S512x2048 (shapeCast S512x1
          (multiReduction (F := Ideal) .maximumf [1] S512 x 0xFF800000#32 reduces_S512x2048_S512 (.inl rfl) rfl) shapeCasts_S512_S512x1) broadcasts_S512x1_S512x2048)))
        0x00000000#32 reduces_S512x2048_S512 (.inl rfl) rfl) shapeCasts_S512_S512x1) broadcasts_S512x1_S512x2048)

/-- The shifted exponential at (r, s). -/
theorem shifted_apply (x : FVec Ideal S512x2048 .f32) (r : Fin 512) (s : Fin 2048) :
    exp (subf x (broadcastTo S512x2048 (shapeCast S512x1
      (multiReduction (F := Ideal) .maximumf [1] S512 x 0xFF800000#32 reduces_S512x2048_S512 (.inl rfl) rfl) shapeCasts_S512_S512x1) broadcasts_S512x1_S512x2048)) (ix2 r s)
      = Ideal.exp (x (ix2 r s) - (Finset.univ : Finset (Fin 2048)).fold max negInf (fun s' => x (ix2 r s'))) := by
  show Ideal.exp (x (ix2 r s) - broadcastTo S512x2048 (shapeCast S512x1
      (multiReduction (F := Ideal) .maximumf [1] S512 x 0xFF800000#32 reduces_S512x2048_S512 (.inl rfl) rfl) shapeCasts_S512_S512x1) broadcasts_S512x1_S512x2048 (ix2 r s)) = _
  rw [column_apply, rowMax_apply]

/-- The softmax of a tile whose row `r` holds the scores `f`, at (r, s): the weight the scores `f` give key `s`. -/
theorem softmaxRows_apply (x : FVec Ideal S512x2048 .f32) (r : Fin 512) (f : Fin 2048 → EReal)
    (hf : ∀ s, x (ix2 r s) = f s) (s : Fin 2048) :
    softmaxRows x (ix2 r s)
      = Ideal.div (Ideal.exp (f s - (Finset.univ : Finset (Fin 2048)).fold max negInf f))
          (∑ s' : Fin 2048, Ideal.exp (f s' - (Finset.univ : Finset (Fin 2048)).fold max negInf f)) := by
  obtain rfl : f = fun s => x (ix2 r s) := (funext hf).symm
  show Ideal.div (exp (subf x _) (ix2 r s)) (broadcastTo S512x2048 (shapeCast S512x1 _ shapeCasts_S512_S512x1) broadcasts_S512x1_S512x2048 (ix2 r s)) = _
  rw [column_apply, rowSum_apply, shifted_apply]
  refine congrArg (Ideal.div _) (Finset.sum_congr rfl fun s' _ => ?_)
  exact shifted_apply x r s'

end Softmax

/-! ## The payloads -/

section Payloads

variable (P0 : Vec Ideal S1x512x1024 .f32) (P1 : Vec Ideal S1x2048x1024 .f32)

/-- Row `r` of the query tile. -/
def queryRow (r : Fin 512) : Fin 1024 → EReal := fun d => P0 (ix3 (0 : Fin 1) r d)

/-- The key tile, by position and feature. -/
def keyRows : Fin 2048 → Fin 1024 → EReal := fun s d => P1 (ix3 (0 : Fin 1) s d)

/-- The keys as the products take them: the tile with its unit axis dropped. -/
theorem keys_apply (s : Fin 2048) (d : Fin 1024) : k0_pay1 P1 (ix2 s d) = keyRows P1 s d := by
  unfold k0_pay1
  exact shapeCast_1ab_ab_apply P1 shapeCasts_S1x2048x1024_S2048x1024 s d

/-- The tile's scores. -/
def tileScores : FVec Ideal S512x2048 .f32 :=
  matmul dot_S512x1024_S2048x1024_S512x2048_1_1_0_0_n_n none (truncf .bf16 (shapeCast S512x1024 P0 shapeCasts_S1x512x1024_S512x1024) bitsLt_bf16_f32) (k0_pay1 P1)
    (constant (F := Ideal) S512x2048 .f32 0x00000000#32)

/-- At (r, s) they are the score of the tile's row `r` against key `s`. -/
theorem tileScores_apply (r : Fin 512) (s : Fin 2048) :
    tileScores P0 P1 (ix2 r s) = score (queryRow P0 r) (keyRows P1) s := by
  unfold tileScores
  refine (scoreProduct_apply _ _ r s).trans ?_
  unfold score
  refine Finset.sum_congr rfl fun d _ => ?_
  have eq : (truncf .bf16 (shapeCast S512x1024 P0 shapeCasts_S1x512x1024_S512x1024) bitsLt_bf16_f32 : FVec Ideal S512x1024 .bf16) (ix2 r d)
      = queryRow P0 r d := shapeCast_1ab_ab_apply P0 shapeCasts_S1x512x1024_S512x1024 r d
  rw [eq, keys_apply]

/-- The weights payload is the softmax of the tile's scores. -/
theorem weightsPayload_eq : k0_pay2 P0 P1 = softmaxRows (tileScores P0 P1) := rfl

/-- The weights payload at (r, s): the weight the tile's row `r` puts on key `s`. -/
theorem weightsPayload_apply (r : Fin 512) (s : Fin 2048) :
    k0_pay2 P0 P1 (ix2 r s) = weight (queryRow P0 r) (keyRows P1) s := by
  rw [weightsPayload_eq]
  exact softmaxRows_apply (tileScores P0 P1) r (score (queryRow P0 r) (keyRows P1)) (tileScores_apply P0 P1 r) s

/-- What is stored to the weights' block at (0, r, s). -/
theorem weightsStore_apply (u : Fin 1) (r : Fin 512) (s : Fin 2048) :
    k0_pay3 P0 P1 (ix3 u r s) = weight (queryRow P0 r) (keyRows P1) s := by
  unfold k0_pay3
  exact (shapeCast_ab_1ab_apply (k0_pay2 P0 P1) shapeCasts_S512x2048_S1x512x2048 u r s).trans (weightsPayload_apply P0 P1 r s)

/-- What is stored to the contexts' block at (0, r, d): the context of the tile's row `r` at feature `d`. -/
theorem contextStore_apply (u : Fin 1) (r : Fin 512) (d : Fin 1024) :
    k0_pay4 P0 P1 (ix3 u r d) = mix (queryRow P0 r) (keyRows P1) d := by
  unfold k0_pay4
  refine (shapeCast_ab_1ab_apply _ shapeCasts_S512x1024_S1x512x1024 u r d).trans ?_
  refine (mixProduct_apply _ _ r d).trans ?_
  unfold mix
  refine Finset.sum_congr rfl fun s _ => ?_
  have ew : (truncf .bf16 (k0_pay2 P0 P1) bitsLt_bf16_f32 : FVec Ideal S512x2048 .bf16) (ix2 r s)
      = weight (queryRow P0 r) (keyRows P1) s := weightsPayload_apply P0 P1 r s
  rw [ew, keys_apply]

end Payloads

end Cert.KernelIdeal.Tile

end
-- ==== Proof.BlocksToArrays.lean ====
/-
  From the grid's blocks to the whole arrays.

  The grid has a point for every batch `b` and every tile of 512 query positions. At a point the query window
  and both output windows sit on the same block — batch `b`, the tile's rows, every column — while the key window
  sits on the whole of batch `b`. So row `r` of the point's query block is row (b, 512·tile + r) of the queries,
  the point's key block is batch `b` of the keys, and what the point writes back — the per-row weights and contexts
  of its tile — is the matching block of the whole arrays of weights and contexts. The output blocks tile their
  arrays (the block holding position `p` of batch `b` is the point (b, p / 512)), so after the run each output
  array is that whole array.
-/
import proofs.«100606_j37031208026188_2_alg».proof.Proof.Gen.KernelIdeal.Frame
import proofs.«100606_j37031208026188_2_alg».proof.Proof.Gen.KernelIdeal.Value
import proofs.«100606_j37031208026188_2_alg».proof.Proof.RowAttention
import proofs.«100606_j37031208026188_2_alg».proof.Proof.TileRows
import Idealize.ShloMosaic.Lib.Pipeline.Value

noncomputable section

namespace Cert.KernelIdeal.Arrays

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.Attention

variable (m : (ℓ : Loc nD τ sig) → Buf (Elt Ideal) ℓ) (ρ : Dev nD → PrngReg)

theorem hz : (![0, 0, 0] : Fin 3 → Nat) = fun _ => 0 := funext fun a => by fin_cases a <;> rfl

/-- The queries and the keys as a core finds them. -/
abbrev queries (c : Dev nD) : Rows := V m c main_arg0
abbrev keys (c : Dev nD) : Rows := V m c main_arg1

/-! ## Where the windows sit -/

/-- Decided over the 32 points: the query window and the contexts' window sit on the weights' window's block; the
    key window on the same batch, at the start of the other two axes; the batch index is below 8, the tile index
    below 4, and the last axis is never split. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (0 : Fin 3) ≤ 7 ∧ win0_3.index t (1 : Fin 3) ≤ 3 ∧ win0_3.index t (2 : Fin 3) = 0 :=
  (by decide +kernel : ∀ t : Fin grid0.N, _)

/-- Every batch and tile is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## The input blocks as rows of the arrays -/

/-- The query block at point `t`, at (0, r, d), is the queries at the index whose coordinates are the block's
    offsets plus (0, r, d). -/
theorem queryBlock_apply (c : Dev nD) (t : Fin cfg0.N) (u : Fin 1) (r : Fin 512) (d : Fin 1024) (k : S8x2048x1024.Idx)
    (h0 : (k 0).val = win0_0.index t (0 : Fin 3)) (h1 : (k 1).val = win0_0.index t (1 : Fin 3) * 512 + r.val)
    (h2 : (k 2).val = win0_0.index t (2 : Fin 3) * 1024 + d.val) :
    (iblk m c 0 t : Vec Ideal S1x512x1024 .f32) (ix3 u r d) = queries m c k := by
  have hu : u.val = 0 := by have := u.isLt; omega
  unfold iblk
  rw [View.read_apply]
  show V m c main_arg0 _ = V m c main_arg0 k
  congr 1
  funext a
  apply Fin.ext
  match a with
  | ⟨0, _⟩ => show win0_0.index t 0 * 1 + 1 * u.val = (k 0).val; omega
  | ⟨1, _⟩ => show win0_0.index t 1 * 512 + 1 * r.val = (k 1).val; omega
  | ⟨2, _⟩ => show win0_0.index t 2 * 1024 + 1 * d.val = (k 2).val; omega

/-- The key block at point `t`, likewise. -/
theorem keyBlock_apply (c : Dev nD) (t : Fin cfg0.N) (u : Fin 1) (s : Fin 2048) (d : Fin 1024) (k : S8x2048x1024.Idx)
    (h0 : (k 0).val = win0_1.index t (0 : Fin 3)) (h1 : (k 1).val = win0_1.index t (1 : Fin 3) * 2048 + s.val)
    (h2 : (k 2).val = win0_1.index t (2 : Fin 3) * 1024 + d.val) :
    (iblk m c 1 t : Vec Ideal S1x2048x1024 .f32) (ix3 u s d) = keys m c k := by
  have hu : u.val = 0 := by have := u.isLt; omega
  unfold iblk
  rw [View.read_apply]
  show V m c main_arg1 _ = V m c main_arg1 k
  congr 1
  funext a
  apply Fin.ext
  match a with
  | ⟨0, _⟩ => show win0_1.index t 0 * 1 + 1 * u.val = (k 0).val; omega
  | ⟨1, _⟩ => show win0_1.index t 1 * 2048 + 1 * s.val = (k 1).val; omega
  | ⟨2, _⟩ => show win0_1.index t 2 * 1024 + 1 * d.val = (k 2).val; omega

/-- Row `r` of the point's query block is the queries' row at batch `b`, position `p`, when those are the block's
    batch and the block's first position plus `r`. -/
theorem queryRow_eq (c : Dev nD) (t : Fin cfg0.N) (r : Fin 512) (b : Fin 8) (p : Fin 2048)
    (hb : b.val = win0_0.index t (0 : Fin 3)) (hp : p.val = win0_0.index t (1 : Fin 3) * 512 + r.val)
    (h2 : win0_0.index t (2 : Fin 3) = 0) :
    Tile.queryRow (iblk m c 0 t) r = rowOf (queries m c) b p :=
  funext fun d => queryBlock_apply m c t 0 r d (ix3 b p d) hb hp (by show d.val = _; omega)

/-- The point's key block is batch `b` of the keys, when `b` is the block's batch. -/
theorem keyRows_eq (c : Dev nD) (t : Fin cfg0.N) (b : Fin 8)
    (hb : b.val = win0_1.index t (0 : Fin 3)) (h1 : win0_1.index t (1 : Fin 3) = 0) (h2 : win0_1.index t (2 : Fin 3) = 0) :
    Tile.keyRows (iblk m c 1 t) = batchOf (keys m c) b :=
  funext fun s => funext fun d => keyBlock_apply m c t 0 s d (ix3 b s d) hb (by show s.val = _; omega) (by show d.val = _; omega)

/-! ## The weights -/

/-- What point `t` writes back to the weights' array is block `t` of the whole array of weights. -/
theorem weightsFlushed_eq (c : Dev nD) (t : Fin cfg0.N) :
    (dats m 0 c).flushed 3 t = ((cfg0.win 3).blk t).view.read (Elt Ideal) (weights (queries m c) (keys m c)) := by
  obtain ⟨e00, e01, e02, e10, e11, e12, -, -, -, b0, b1, e32⟩ := idx_facts t
  rw [flushed3]
  unfold out0_3
  rw [View.canon_unit_zero hz]
  simp only [View.ld_unit_zero (S := S1x512x1024) hz, View.ld_unit_zero (S := S1x2048x1024) hz]
  refine funext fun (y : S1x512x2048.Idx) => ?_
  obtain ⟨u, r, s, rfl⟩ : ∃ (u : Fin 1) (r : Fin 512) (s : Fin 2048), y = ix3 u r s := ⟨y 0, y 1, y 2, eq_ix3 y⟩
  have hu : u.val = 0 := by have := u.isLt; omega
  show k0_pay3 (iblk m c 0 t) (iblk m c 1 t) (ix3 u r s)
    = weights (queries m c) (keys m c) (((cfg0.win 3).blk t).view.emb (ix3 u r s))
  refine (Tile.weightsStore_apply (iblk m c 0 t) (iblk m c 1 t) u r s).trans ?_
  have i0 : ((((cfg0.win 3).blk t).view.emb (ix3 u r s)) 0).val = win0_3.index t (0 : Fin 3) := by
    show win0_3.index t 0 * 1 + 1 * u.val = _; omega
  have i1 : ((((cfg0.win 3).blk t).view.emb (ix3 u r s)) 1).val = win0_3.index t (1 : Fin 3) * 512 + r.val := by
    show win0_3.index t 1 * 512 + 1 * r.val = _; omega
  have i2 : ((((cfg0.win 3).blk t).view.emb (ix3 u r s)) 2) = s := Fin.ext (by
    show win0_3.index t 2 * 2048 + 1 * s.val = _; omega)
  have hq := queryRow_eq m c t r ((((cfg0.win 3).blk t).view.emb (ix3 u r s)) 0) ((((cfg0.win 3).blk t).view.emb (ix3 u r s)) 1)
    (by rw [i0, e00]) (by rw [i1, e01]) e02
  have hk := keyRows_eq m c t ((((cfg0.win 3).blk t).view.emb (ix3 u r s)) 0) (by rw [i0, e10]) e11 e12
  show _ = weight (rowOf (queries m c) _ _) (batchOf (keys m c) _) _
  rw [hq, hk, i2]

/-- An index of the weights' array is in point `t`'s block iff each coordinate is in the block's range. -/
theorem weightsBlock_mem (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0_1).slice (win0_3.rect t)).set ↔ _
  rw [View.set_slice_whole, Rect.mem_set_unit]
  exact Iff.rfl

/-- The weights' blocks cover their array. -/
theorem weights_cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [weightsBlock_mem]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- After the run the weights' array is the whole array of weights. -/
theorem weights_final (c : Dev nD) : (dats m 0 c).arrAt 3 cfg0.N = weights (queries m c) (keys m c) :=
  (dats m 0 c).arrAt_eq_of_cover 3 (weights (queries m c) (keys m c)) (fun t _ => weightsFlushed_eq m c t) weights_cover

/-! ## The contexts -/

/-- What point `t` writes back to the contexts' array is block `t` of the whole array of contexts. -/
theorem contextsFlushed_eq (c : Dev nD) (t : Fin cfg0.N) :
    (dats m 0 c).flushed 2 t = ((cfg0.win 2).blk t).view.read (Elt Ideal) (contexts (queries m c) (keys m c)) := by
  obtain ⟨e00, e01, e02, e10, e11, e12, e20, e21, e22, b0, b1, e32⟩ := idx_facts t
  rw [flushed2]
  unfold out0_2
  rw [View.canon_unit_zero hz]
  simp only [View.ld_unit_zero (S := S1x512x1024) hz, View.ld_unit_zero (S := S1x2048x1024) hz]
  refine funext fun (y : S1x512x1024.Idx) => ?_
  obtain ⟨u, r, d, rfl⟩ : ∃ (u : Fin 1) (r : Fin 512) (d : Fin 1024), y = ix3 u r d := ⟨y 0, y 1, y 2, eq_ix3 y⟩
  have hu : u.val = 0 := by have := u.isLt; omega
  show k0_pay4 (iblk m c 0 t) (iblk m c 1 t) (ix3 u r d)
    = contexts (queries m c) (keys m c) (((cfg0.win 2).blk t).view.emb (ix3 u r d))
  refine (Tile.contextStore_apply (iblk m c 0 t) (iblk m c 1 t) u r d).trans ?_
  have i0 : ((((cfg0.win 2).blk t).view.emb (ix3 u r d)) 0).val = win0_2.index t (0 : Fin 3) := by
    show win0_2.index t 0 * 1 + 1 * u.val = _; omega
  have i1 : ((((cfg0.win 2).blk t).view.emb (ix3 u r d)) 1).val = win0_2.index t (1 : Fin 3) * 512 + r.val := by
    show win0_2.index t 1 * 512 + 1 * r.val = _; omega
  have i2 : ((((cfg0.win 2).blk t).view.emb (ix3 u r d)) 2) = d := Fin.ext (by
    show win0_2.index t 2 * 1024 + 1 * d.val = _; omega)
  have hq := queryRow_eq m c t r ((((cfg0.win 2).blk t).view.emb (ix3 u r d)) 0) ((((cfg0.win 2).blk t).view.emb (ix3 u r d)) 1)
    (by rw [i0, e00, e20]) (by rw [i1, e01, e21]) e02
  have hk := keyRows_eq m c t ((((cfg0.win 2).blk t).view.emb (ix3 u r d)) 0) (by rw [i0, e10, e20]) e11 e12
  show _ = mix (rowOf (queries m c) _ _) (batchOf (keys m c) _) _
  rw [hq, hk, i2]

/-- An index of the contexts' array is in point `t`'s block iff each coordinate is in the block's range. -/
theorem contextsBlock_mem (t : Fin cfg0.N) (i : S8x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0_0).slice (win0_2.rect t)).set ↔ _
  rw [View.set_slice_whole, Rect.mem_set_unit]
  exact Iff.rfl

/-- The contexts' blocks cover their array. -/
theorem contexts_cover (i : S8x2048x1024.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, -, -, -, -, -, e20, e21, e22, -, -, -⟩ := idx_facts t
  have q0 : win0_3.index t (0 : Fin 3) = (i 0).val := congrFun ht 0
  have q1 : win0_3.index t (1 : Fin 3) = (i 1).val / 512 := congrFun ht 1
  refine ⟨t, flush0_2 t, ?_⟩
  rw [contextsBlock_mem]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- After the run the contexts' array is the whole array of contexts. -/
theorem contexts_final (c : Dev nD) : (dats m 0 c).arrAt 2 cfg0.N = contexts (queries m c) (keys m c) :=
  (dats m 0 c).arrAt_eq_of_cover 2 (contexts (queries m c) (keys m c)) (fun t _ => contextsFlushed_eq m c t) contexts_cover

/-! ## The run -/

/-- Every weakly fair execution of the kernel's program ends with the contexts and the weights of its arguments in
    the two result arrays, and the arguments as they were. -/
theorem run : θ_run defs (onTc (τ := τ) (main (F := Ideal))) ⟨m, fun _ => 0, ρ⟩ fun r => ∀ c : Dev nD,
      r.2.mem ((c : Thread nD τ).loc main_v0_0) = contexts (queries m c) (keys m c)
      ∧ r.2.mem ((c : Thread nD τ).loc main_v0_1) = weights (queries m c) (keys m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (contexts_final m c), (h c).2.1.trans (weights_final m c), (h c).2.2⟩)
    (Value.run_blocks m ρ)

end Cert.KernelIdeal.Arrays

end
-- ==== Proof.lean ====
/-
  Dot-product attention computed tile by tile equals dot-product attention computed whole.

  Both programs take queries and keys of shape [8, 2048, 1024] and return the context vectors [8, 2048, 1024] and
  the attention weights [8, 2048, 2048]. For every query row the weights are the softmax over the keys of the row's
  inner products with the key rows — the row's largest score subtracted, the exponential, the division by the row's
  sum —, and the context is the weighted sum of the key rows. The kernel computes this one tile of 512 query rows at
  a time against all the keys of the tile's batch, narrowing its operands before each of its two products; the
  reference computes it for all rows at once by two batched products.

  On the extended reals the narrowing is the identity, a product into a zero accumulator is the plain sum over the
  contracted axis, a maximum folded from −∞ is the same in any order, and the reference's extra maximum against −∞
  changes nothing. A query row's weights and context depend only on that row and on its batch of keys, so the
  tiling does not matter: row by row both programs compute the same functions (`Cert.Attention.weights`,
  `Cert.Attention.contexts`) of their arguments. No law used needs the entries to be finite, so the precondition is
  never opened. The kernel's idealization rewrote nothing, so there is nothing to preserve.
-/
import proofs.«100606_j37031208026188_2_alg».proof.Defs
import proofs.«100606_j37031208026188_2_alg».proof.Proof.Gen.Kernel
import proofs.«100606_j37031208026188_2_alg».proof.Proof.Gen.Kernel.Skeleton
import proofs.«100606_j37031208026188_2_alg».proof.Proof.Gen.Kernel.Launch
import proofs.«100606_j37031208026188_2_alg».proof.Proof.Gen.Kernel.Points
import proofs.«100606_j37031208026188_2_alg».proof.Proof.Gen.Kernel.Frame
import proofs.«100606_j37031208026188_2_alg».proof.Proof.Gen.KernelIdeal
import proofs.«100606_j37031208026188_2_alg».proof.Proof.Gen.KernelIdeal.Skeleton
import proofs.«100606_j37031208026188_2_alg».proof.Proof.Gen.KernelIdeal.Launch
import proofs.«100606_j37031208026188_2_alg».proof.Proof.Gen.KernelIdeal.Points
import proofs.«100606_j37031208026188_2_alg».proof.Proof.Gen.KernelIdeal.Frame
import proofs.«100606_j37031208026188_2_alg».proof.Proof.Gen.ReferenceIdeal
import proofs.«100606_j37031208026188_2_alg».proof.Proof.Gen.Pre_finite_inputs
import proofs.«100606_j37031208026188_2_alg».proof.Proof.Gen.KernelIdeal.Value
import proofs.«100606_j37031208026188_2_alg».proof.Proof.Gen.ReferenceIdeal.Run
import proofs.«100606_j37031208026188_2_alg».proof.Proof.Gen.ReferenceIdeal.Read
import proofs.«100606_j37031208026188_2_alg».proof.Proof.RowAttention
import proofs.«100606_j37031208026188_2_alg».proof.Proof.ReferenceRows
import proofs.«100606_j37031208026188_2_alg».proof.Proof.TileRows
import proofs.«100606_j37031208026188_2_alg».proof.Proof.BlocksToArrays
import Idealize.ShloMosaic.Adequacy
import Idealize.ShloMosaic.Init

noncomputable section

namespace Cert.Proof

open Idealize.ShloMosaic Idealize.SL.Sem Cert.Attention

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading on the extended reals. -/
theorem preserves : Cert.preserves_Kernel_KernelIdeal := trivial

/-- From memories that agree on the queries and the keys, the kernel ends with the contexts and the weights of
    its arguments (tile by tile, then block by block into the arrays), and the reference ends with the same two
    arrays (stage by stage). -/
theorem algebraic : Cert.algebraic_KernelIdeal_ReferenceIdeal := by
  intro m ρ m' ρ' _ hagree
  refine ⟨fun c => contexts (Cert.KernelIdeal.Arrays.queries m c) (Cert.KernelIdeal.Arrays.keys m c),
    fun c => weights (Cert.KernelIdeal.Arrays.queries m c) (Cert.KernelIdeal.Arrays.keys m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2]
    exact (Cert.ReferenceIdeal.Read.val_main_v12_eq _ _).trans (Cert.ReferenceIdeal.Rowwise.contexts_eq _ _)
  · rw [(hagree c).1, (hagree c).2]
    exact (Cert.ReferenceIdeal.Read.val_main_v11_eq _ _).trans (Cert.ReferenceIdeal.Rowwise.weights_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
